-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel

variable [Facts]

def fn {F : FTy → Type} [FloatOps F] (main_arg0 : FVec F S4x1024x64 .f32) (main_arg1 : FVec F S4x1024x64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  main_v8
-- ==== Kernel.lean ====
abbrev S4x1024x64 : Shape := ⟨3, ![4, 1024, 64]⟩
abbrev S4x64x1024 : Shape := ⟨3, ![4, 64, 1024]⟩
abbrev S4x1024x1024 : Shape := ⟨3, ![4, 1024, 1024]⟩
abbrev S1x256x64 : Shape := ⟨3, ![1, 256, 64]⟩
abbrev S1x64x512 : Shape := ⟨3, ![1, 64, 512]⟩
abbrev S1x256x512 : Shape := ⟨3, ![1, 256, 512]⟩
abbrev S256x512 : Shape := ⟨2, ![256, 512]⟩
abbrev S1x256x1 : Shape := ⟨3, ![1, 256, 1]⟩
abbrev S256x1 : Shape := ⟨2, ![256, 1]⟩
abbrev S1x1x512 : Shape := ⟨3, ![1, 1, 512]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x64x1024, .f32⟩
  | .hbm, ⟨3, _⟩ => ⟨S4x1024x1024, .f32⟩
  | .local _ .vmem, ⟨0, _⟩ => ⟨S1x256x64, .f32⟩
  | .local _ .vmem, ⟨1, _⟩ => ⟨S1x256x64, .f32⟩
  | .local _ .vmem, ⟨2, _⟩ => ⟨S1x64x512, .f32⟩
  | .local _ .vmem, ⟨3, _⟩ => ⟨S1x64x512, .f32⟩
  | .local _ .vmem, ⟨4, _⟩ => ⟨S1x256x512, .f32⟩
  | .local _ .vmem, ⟨5, _⟩ => ⟨S1x256x512, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S4x1024x64_S4x64x1024_0_2_1 : S4x1024x64.Transposes [0, 2, 1] S4x64x1024
  inb_S1x256x64_S1x256x1_0_0_0 : ∀ a, (![0, 0, 0] : Fin 3 → Nat) a + S1x256x1.size a ≤ S1x256x64.size a
  h_S1x256x1 : 0 < S1x256x1.numel
  shapeCasts_S1x256x1_S256x1 : S1x256x1.ShapeCasts S256x1
  shapeCasts_S256x1_S256x1 : S256x1.ShapeCasts S256x1
  broadcasts_S256x1_S256x512 : S256x1.Broadcasts S256x512
  inb_S1x64x512_S1x1x512_0_0_0 : ∀ a, (![0, 0, 0] : Fin 3 → Nat) a + S1x1x512.size a ≤ S1x64x512.size a
  h_S1x1x512 : 0 < S1x1x512.numel
  shapeCasts_S1x1x512_S1x512 : S1x1x512.ShapeCasts S1x512
  shapeCasts_S1x512_S1x512 : S1x512.ShapeCasts S1x512
  broadcasts_S1x512_S256x512 : S1x512.Broadcasts S256x512
  inb_S1x256x64_S1x256x1_0_0_1 : ∀ a, (![0, 0, 1] : Fin 3 → Nat) a + S1x256x1.size a ≤ S1x256x64.size a
  inb_S1x64x512_S1x1x512_0_1_0 : ∀ a, (![0, 1, 0] : Fin 3 → Nat) a + S1x1x512.size a ≤ S1x64x512.size a
  inb_S1x256x64_S1x256x1_0_0_2 : ∀ a, (![0, 0, 2] : Fin 3 → Nat) a + S1x256x1.size a ≤ S1x256x64.size a
  inb_S1x64x512_S1x1x512_0_2_0 : ∀ a, (![0, 2, 0] : Fin 3 → Nat) a + S1x1x512.size a ≤ S1x64x512.size a
  inb_S1x256x64_S1x256x1_0_0_3 : ∀ a, (![0, 0, 3] : Fin 3 → Nat) a + S1x256x1.size a ≤ S1x256x64.size a
  inb_S1x64x512_S1x1x512_0_3_0 : ∀ a, (![0, 3, 0] : Fin 3 → Nat) a + S1x1x512.size a ≤ S1x64x512.size a
  inb_S1x256x64_S1x256x1_0_0_4 : ∀ a, (![0, 0, 4] : Fin 3 → Nat) a + S1x256x1.size a ≤ S1x256x64.size a
  inb_S1x64x512_S1x1x512_0_4_0 : ∀ a, (![0, 4, 0] : Fin 3 → Nat) a + S1x1x512.size a ≤ S1x64x512.size a
  inb_S1x256x64_S1x256x1_0_0_5 : ∀ a, (![0, 0, 5] : Fin 3 → Nat) a + S1x256x1.size a ≤ S1x256x64.size a
  inb_S1x64x512_S1x1x512_0_5_0 : ∀ a, (![0, 5, 0] : Fin 3 → Nat) a + S1x1x512.size a ≤ S1x64x512.size a
  inb_S1x256x64_S1x256x1_0_0_6 : ∀ a, (![0, 0, 6] : Fin 3 → Nat) a + S1x256x1.size a ≤ S1x256x64.size a
  inb_S1x64x512_S1x1x512_0_6_0 : ∀ a, (![0, 6, 0] : Fin 3 → Nat) a + S1x1x512.size a ≤ S1x64x512.size a
  inb_S1x256x64_S1x256x1_0_0_7 : ∀ a, (![0, 0, 7] : Fin 3 → Nat) a + S1x256x1.size a ≤ S1x256x64.size a
  inb_S1x64x512_S1x1x512_0_7_0 : ∀ a, (![0, 7, 0] : Fin 3 → Nat) a + S1x1x512.size a ≤ S1x64x512.size a
  inb_S1x256x64_S1x256x1_0_0_8 : ∀ a, (![0, 0, 8] : Fin 3 → Nat) a + S1x256x1.size a ≤ S1x256x64.size a
  inb_S1x64x512_S1x1x512_0_8_0 : ∀ a, (![0, 8, 0] : Fin 3 → Nat) a + S1x1x512.size a ≤ S1x64x512.size a
  inb_S1x256x64_S1x256x1_0_0_9 : ∀ a, (![0, 0, 9] : Fin 3 → Nat) a + S1x256x1.size a ≤ S1x256x64.size a
  inb_S1x64x512_S1x1x512_0_9_0 : ∀ a, (![0, 9, 0] : Fin 3 → Nat) a + S1x1x512.size a ≤ S1x64x512.size a
  inb_S1x256x64_S1x256x1_0_0_10 : ∀ a, (![0, 0, 10] : Fin 3 → Nat) a + S1x256x1.size a ≤ S1x256x64.size a
  inb_S1x64x512_S1x1x512_0_10_0 : ∀ a, (![0, 10, 0] : Fin 3 → Nat) a + S1x1x512.size a ≤ S1x64x512.size a
  inb_S1x256x64_S1x256x1_0_0_11 : ∀ a, (![0, 0, 11] : Fin 3 → Nat) a + S1x256x1.size a ≤ S1x256x64.size a
  inb_S1x64x512_S1x1x512_0_11_0 : ∀ a, (![0, 11, 0] : Fin 3 → Nat) a + S1x1x512.size a ≤ S1x64x512.size a
  inb_S1x256x64_S1x256x1_0_0_12 : ∀ a, (![0, 0, 12] : Fin 3 → Nat) a + S1x256x1.size a ≤ S1x256x64.size a
  inb_S1x64x512_S1x1x512_0_12_0 : ∀ a, (![0, 12, 0] : Fin 3 → Nat) a + S1x1x512.size a ≤ S1x64x512.size a
  inb_S1x256x64_S1x256x1_0_0_13 : ∀ a, (![0, 0, 13] : Fin 3 → Nat) a + S1x256x1.size a ≤ S1x256x64.size a
  inb_S1x64x512_S1x1x512_0_13_0 : ∀ a, (![0, 13, 0] : Fin 3 → Nat) a + S1x1x512.size a ≤ S1x64x512.size a
  inb_S1x256x64_S1x256x1_0_0_14 : ∀ a, (![0, 0, 14] : Fin 3 → Nat) a + S1x256x1.size a ≤ S1x256x64.size a
  inb_S1x64x512_S1x1x512_0_14_0 : ∀ a, (![0, 14, 0] : Fin 3 → Nat) a + S1x1x512.size a ≤ S1x64x512.size a
  inb_S1x256x64_S1x256x1_0_0_15 : ∀ a, (![0, 0, 15] : Fin 3 → Nat) a + S1x256x1.size a ≤ S1x256x64.size a
  inb_S1x64x512_S1x1x512_0_15_0 : ∀ a, (![0, 15, 0] : Fin 3 → Nat) a + S1x1x512.size a ≤ S1x64x512.size a
  inb_S1x256x64_S1x256x1_0_0_16 : ∀ a, (![0, 0, 16] : Fin 3 → Nat) a + S1x256x1.size a ≤ S1x256x64.size a
  inb_S1x64x512_S1x1x512_0_16_0 : ∀ a, (![0, 16, 0] : Fin 3 → Nat) a + S1x1x512.size a ≤ S1x64x512.size a
  inb_S1x256x64_S1x256x1_0_0_17 : ∀ a, (![0, 0, 17] : Fin 3 → Nat) a + S1x256x1.size a ≤ S1x256x64.size a
  inb_S1x64x512_S1x1x512_0_17_0 : ∀ a, (![0, 17, 0] : Fin 3 → Nat) a + S1x1x512.size a ≤ S1x64x512.size a
  inb_S1x256x64_S1x256x1_0_0_18 : ∀ a, (![0, 0, 18] : Fin 3 → Nat) a + S1x256x1.size a ≤ S1x256x64.size a
  inb_S1x64x512_S1x1x512_0_18_0 : ∀ a, (![0, 18, 0] : Fin 3 → Nat) a + S1x1x512.size a ≤ S1x64x512.size a
  inb_S1x256x64_S1x256x1_0_0_19 : ∀ a, (![0, 0, 19] : Fin 3 → Nat) a + S1x256x1.size a ≤ S1x256x64.size a
  inb_S1x64x512_S1x1x512_0_19_0 : ∀ a, (![0, 19, 0] : Fin 3 → Nat) a + S1x1x512.size a ≤ S1x64x512.size a
  inb_S1x256x64_S1x256x1_0_0_20 : ∀ a, (![0, 0, 20] : Fin 3 → Nat) a + S1x256x1.size a ≤ S1x256x64.size a
  inb_S1x64x512_S1x1x512_0_20_0 : ∀ a, (![0, 20, 0] : Fin 3 → Nat) a + S1x1x512.size a ≤ S1x64x512.size a
  inb_S1x256x64_S1x256x1_0_0_21 : ∀ a, (![0, 0, 21] : Fin 3 → Nat) a + S1x256x1.size a ≤ S1x256x64.size a
  inb_S1x64x512_S1x1x512_0_21_0 : ∀ a, (![0, 21, 0] : Fin 3 → Nat) a + S1x1x512.size a ≤ S1x64x512.size a
  inb_S1x256x64_S1x256x1_0_0_22 : ∀ a, (![0, 0, 22] : Fin 3 → Nat) a + S1x256x1.size a ≤ S1x256x64.size a
  inb_S1x64x512_S1x1x512_0_22_0 : ∀ a, (![0, 22, 0] : Fin 3 → Nat) a + S1x1x512.size a ≤ S1x64x512.size a
  inb_S1x256x64_S1x256x1_0_0_23 : ∀ a, (![0, 0, 23] : Fin 3 → Nat) a + S1x256x1.size a ≤ S1x256x64.size a
  inb_S1x64x512_S1x1x512_0_23_0 : ∀ a, (![0, 23, 0] : Fin 3 → Nat) a + S1x1x512.size a ≤ S1x64x512.size a
  inb_S1x256x64_S1x256x1_0_0_24 : ∀ a, (![0, 0, 24] : Fin 3 → Nat) a + S1x256x1.size a ≤ S1x256x64.size a
  inb_S1x64x512_S1x1x512_0_24_0 : ∀ a, (![0, 24, 0] : Fin 3 → Nat) a + S1x1x512.size a ≤ S1x64x512.size a
  inb_S1x256x64_S1x256x1_0_0_25 : ∀ a, (![0, 0, 25] : Fin 3 → Nat) a + S1x256x1.size a ≤ S1x256x64.size a
  inb_S1x64x512_S1x1x512_0_25_0 : ∀ a, (![0, 25, 0] : Fin 3 → Nat) a + S1x1x512.size a ≤ S1x64x512.size a
  inb_S1x256x64_S1x256x1_0_0_26 : ∀ a, (![0, 0, 26] : Fin 3 → Nat) a + S1x256x1.size a ≤ S1x256x64.size a
  inb_S1x64x512_S1x1x512_0_26_0 : ∀ a, (![0, 26, 0] : Fin 3 → Nat) a + S1x1x512.size a ≤ S1x64x512.size a
  inb_S1x256x64_S1x256x1_0_0_27 : ∀ a, (![0, 0, 27] : Fin 3 → Nat) a + S1x256x1.size a ≤ S1x256x64.size a
  inb_S1x64x512_S1x1x512_0_27_0 : ∀ a, (![0, 27, 0] : Fin 3 → Nat) a + S1x1x512.size a ≤ S1x64x512.size a
  inb_S1x256x64_S1x256x1_0_0_28 : ∀ a, (![0, 0, 28] : Fin 3 → Nat) a + S1x256x1.size a ≤ S1x256x64.size a
  inb_S1x64x512_S1x1x512_0_28_0 : ∀ a, (![0, 28, 0] : Fin 3 → Nat) a + S1x1x512.size a ≤ S1x64x512.size a
  inb_S1x256x64_S1x256x1_0_0_29 : ∀ a, (![0, 0, 29] : Fin 3 → Nat) a + S1x256x1.size a ≤ S1x256x64.size a
  inb_S1x64x512_S1x1x512_0_29_0 : ∀ a, (![0, 29, 0] : Fin 3 → Nat) a + S1x1x512.size a ≤ S1x64x512.size a
  inb_S1x256x64_S1x256x1_0_0_30 : ∀ a, (![0, 0, 30] : Fin 3 → Nat) a + S1x256x1.size a ≤ S1x256x64.size a
  inb_S1x64x512_S1x1x512_0_30_0 : ∀ a, (![0, 30, 0] : Fin 3 → Nat) a + S1x1x512.size a ≤ S1x64x512.size a
  inb_S1x256x64_S1x256x1_0_0_31 : ∀ a, (![0, 0, 31] : Fin 3 → Nat) a + S1x256x1.size a ≤ S1x256x64.size a
  inb_S1x64x512_S1x1x512_0_31_0 : ∀ a, (![0, 31, 0] : Fin 3 → Nat) a + S1x1x512.size a ≤ S1x64x512.size a
  inb_S1x256x64_S1x256x1_0_0_32 : ∀ a, (![0, 0, 32] : Fin 3 → Nat) a + S1x256x1.size a ≤ S1x256x64.size a
  inb_S1x64x512_S1x1x512_0_32_0 : ∀ a, (![0, 32, 0] : Fin 3 → Nat) a + S1x1x512.size a ≤ S1x64x512.size a
  inb_S1x256x64_S1x256x1_0_0_33 : ∀ a, (![0, 0, 33] : Fin 3 → Nat) a + S1x256x1.size a ≤ S1x256x64.size a
  inb_S1x64x512_S1x1x512_0_33_0 : ∀ a, (![0, 33, 0] : Fin 3 → Nat) a + S1x1x512.size a ≤ S1x64x512.size a
  inb_S1x256x64_S1x256x1_0_0_34 : ∀ a, (![0, 0, 34] : Fin 3 → Nat) a + S1x256x1.size a ≤ S1x256x64.size a
  inb_S1x64x512_S1x1x512_0_34_0 : ∀ a, (![0, 34, 0] : Fin 3 → Nat) a + S1x1x512.size a ≤ S1x64x512.size a
  inb_S1x256x64_S1x256x1_0_0_35 : ∀ a, (![0, 0, 35] : Fin 3 → Nat) a + S1x256x1.size a ≤ S1x256x64.size a
  inb_S1x64x512_S1x1x512_0_35_0 : ∀ a, (![0, 35, 0] : Fin 3 → Nat) a + S1x1x512.size a ≤ S1x64x512.size a
  inb_S1x256x64_S1x256x1_0_0_36 : ∀ a, (![0, 0, 36] : Fin 3 → Nat) a + S1x256x1.size a ≤ S1x256x64.size a
  inb_S1x64x512_S1x1x512_0_36_0 : ∀ a, (![0, 36, 0] : Fin 3 → Nat) a + S1x1x512.size a ≤ S1x64x512.size a
  inb_S1x256x64_S1x256x1_0_0_37 : ∀ a, (![0, 0, 37] : Fin 3 → Nat) a + S1x256x1.size a ≤ S1x256x64.size a
  inb_S1x64x512_S1x1x512_0_37_0 : ∀ a, (![0, 37, 0] : Fin 3 → Nat) a + S1x1x512.size a ≤ S1x64x512.size a
  inb_S1x256x64_S1x256x1_0_0_38 : ∀ a, (![0, 0, 38] : Fin 3 → Nat) a + S1x256x1.size a ≤ S1x256x64.size a
  inb_S1x64x512_S1x1x512_0_38_0 : ∀ a, (![0, 38, 0] : Fin 3 → Nat) a + S1x1x512.size a ≤ S1x64x512.size a
  inb_S1x256x64_S1x256x1_0_0_39 : ∀ a, (![0, 0, 39] : Fin 3 → Nat) a + S1x256x1.size a ≤ S1x256x64.size a
  inb_S1x64x512_S1x1x512_0_39_0 : ∀ a, (![0, 39, 0] : Fin 3 → Nat) a + S1x1x512.size a ≤ S1x64x512.size a
  inb_S1x256x64_S1x256x1_0_0_40 : ∀ a, (![0, 0, 40] : Fin 3 → Nat) a + S1x256x1.size a ≤ S1x256x64.size a
  inb_S1x64x512_S1x1x512_0_40_0 : ∀ a, (![0, 40, 0] : Fin 3 → Nat) a + S1x1x512.size a ≤ S1x64x512.size a
  inb_S1x256x64_S1x256x1_0_0_41 : ∀ a, (![0, 0, 41] : Fin 3 → Nat) a + S1x256x1.size a ≤ S1x256x64.size a
  inb_S1x64x512_S1x1x512_0_41_0 : ∀ a, (![0, 41, 0] : Fin 3 → Nat) a + S1x1x512.size a ≤ S1x64x512.size a
  inb_S1x256x64_S1x256x1_0_0_42 : ∀ a, (![0, 0, 42] : Fin 3 → Nat) a + S1x256x1.size a ≤ S1x256x64.size a
  inb_S1x64x512_S1x1x512_0_42_0 : ∀ a, (![0, 42, 0] : Fin 3 → Nat) a + S1x1x512.size a ≤ S1x64x512.size a
  inb_S1x256x64_S1x256x1_0_0_43 : ∀ a, (![0, 0, 43] : Fin 3 → Nat) a + S1x256x1.size a ≤ S1x256x64.size a
  inb_S1x64x512_S1x1x512_0_43_0 : ∀ a, (![0, 43, 0] : Fin 3 → Nat) a + S1x1x512.size a ≤ S1x64x512.size a
  inb_S1x256x64_S1x256x1_0_0_44 : ∀ a, (![0, 0, 44] : Fin 3 → Nat) a + S1x256x1.size a ≤ S1x256x64.size a
  inb_S1x64x512_S1x1x512_0_44_0 : ∀ a, (![0, 44, 0] : Fin 3 → Nat) a + S1x1x512.size a ≤ S1x64x512.size a
  inb_S1x256x64_S1x256x1_0_0_45 : ∀ a, (![0, 0, 45] : Fin 3 → Nat) a + S1x256x1.size a ≤ S1x256x64.size a
  inb_S1x64x512_S1x1x512_0_45_0 : ∀ a, (![0, 45, 0] : Fin 3 → Nat) a + S1x1x512.size a ≤ S1x64x512.size a
  inb_S1x256x64_S1x256x1_0_0_46 : ∀ a, (![0, 0, 46] : Fin 3 → Nat) a + S1x256x1.size a ≤ S1x256x64.size a
  inb_S1x64x512_S1x1x512_0_46_0 : ∀ a, (![0, 46, 0] : Fin 3 → Nat) a + S1x1x512.size a ≤ S1x64x512.size a
  inb_S1x256x64_S1x256x1_0_0_47 : ∀ a, (![0, 0, 47] : Fin 3 → Nat) a + S1x256x1.size a ≤ S1x256x64.size a
  inb_S1x64x512_S1x1x512_0_47_0 : ∀ a, (![0, 47, 0] : Fin 3 → Nat) a + S1x1x512.size a ≤ S1x64x512.size a
  inb_S1x256x64_S1x256x1_0_0_48 : ∀ a, (![0, 0, 48] : Fin 3 → Nat) a + S1x256x1.size a ≤ S1x256x64.size a
  inb_S1x64x512_S1x1x512_0_48_0 : ∀ a, (![0, 48, 0] : Fin 3 → Nat) a + S1x1x512.size a ≤ S1x64x512.size a
  inb_S1x256x64_S1x256x1_0_0_49 : ∀ a, (![0, 0, 49] : Fin 3 → Nat) a + S1x256x1.size a ≤ S1x256x64.size a
  inb_S1x64x512_S1x1x512_0_49_0 : ∀ a, (![0, 49, 0] : Fin 3 → Nat) a + S1x1x512.size a ≤ S1x64x512.size a
  inb_S1x256x64_S1x256x1_0_0_50 : ∀ a, (![0, 0, 50] : Fin 3 → Nat) a + S1x256x1.size a ≤ S1x256x64.size a
  inb_S1x64x512_S1x1x512_0_50_0 : ∀ a, (![0, 50, 0] : Fin 3 → Nat) a + S1x1x512.size a ≤ S1x64x512.size a
  inb_S1x256x64_S1x256x1_0_0_51 : ∀ a, (![0, 0, 51] : Fin 3 → Nat) a + S1x256x1.size a ≤ S1x256x64.size a
  inb_S1x64x512_S1x1x512_0_51_0 : ∀ a, (![0, 51, 0] : Fin 3 → Nat) a + S1x1x512.size a ≤ S1x64x512.size a
  inb_S1x256x64_S1x256x1_0_0_52 : ∀ a, (![0, 0, 52] : Fin 3 → Nat) a + S1x256x1.size a ≤ S1x256x64.size a
  inb_S1x64x512_S1x1x512_0_52_0 : ∀ a, (![0, 52, 0] : Fin 3 → Nat) a + S1x1x512.size a ≤ S1x64x512.size a
  inb_S1x256x64_S1x256x1_0_0_53 : ∀ a, (![0, 0, 53] : Fin 3 → Nat) a + S1x256x1.size a ≤ S1x256x64.size a
  inb_S1x64x512_S1x1x512_0_53_0 : ∀ a, (![0, 53, 0] : Fin 3 → Nat) a + S1x1x512.size a ≤ S1x64x512.size a
  inb_S1x256x64_S1x256x1_0_0_54 : ∀ a, (![0, 0, 54] : Fin 3 → Nat) a + S1x256x1.size a ≤ S1x256x64.size a
  inb_S1x64x512_S1x1x512_0_54_0 : ∀ a, (![0, 54, 0] : Fin 3 → Nat) a + S1x1x512.size a ≤ S1x64x512.size a
  inb_S1x256x64_S1x256x1_0_0_55 : ∀ a, (![0, 0, 55] : Fin 3 → Nat) a + S1x256x1.size a ≤ S1x256x64.size a
  inb_S1x64x512_S1x1x512_0_55_0 : ∀ a, (![0, 55, 0] : Fin 3 → Nat) a + S1x1x512.size a ≤ S1x64x512.size a
  inb_S1x256x64_S1x256x1_0_0_56 : ∀ a, (![0, 0, 56] : Fin 3 → Nat) a + S1x256x1.size a ≤ S1x256x64.size a
  inb_S1x64x512_S1x1x512_0_56_0 : ∀ a, (![0, 56, 0] : Fin 3 → Nat) a + S1x1x512.size a ≤ S1x64x512.size a
  inb_S1x256x64_S1x256x1_0_0_57 : ∀ a, (![0, 0, 57] : Fin 3 → Nat) a + S1x256x1.size a ≤ S1x256x64.size a
  inb_S1x64x512_S1x1x512_0_57_0 : ∀ a, (![0, 57, 0] : Fin 3 → Nat) a + S1x1x512.size a ≤ S1x64x512.size a
  inb_S1x256x64_S1x256x1_0_0_58 : ∀ a, (![0, 0, 58] : Fin 3 → Nat) a + S1x256x1.size a ≤ S1x256x64.size a
  inb_S1x64x512_S1x1x512_0_58_0 : ∀ a, (![0, 58, 0] : Fin 3 → Nat) a + S1x1x512.size a ≤ S1x64x512.size a
  inb_S1x256x64_S1x256x1_0_0_59 : ∀ a, (![0, 0, 59] : Fin 3 → Nat) a + S1x256x1.size a ≤ S1x256x64.size a
  inb_S1x64x512_S1x1x512_0_59_0 : ∀ a, (![0, 59, 0] : Fin 3 → Nat) a + S1x1x512.size a ≤ S1x64x512.size a
  inb_S1x256x64_S1x256x1_0_0_60 : ∀ a, (![0, 0, 60] : Fin 3 → Nat) a + S1x256x1.size a ≤ S1x256x64.size a
  inb_S1x64x512_S1x1x512_0_60_0 : ∀ a, (![0, 60, 0] : Fin 3 → Nat) a + S1x1x512.size a ≤ S1x64x512.size a
  inb_S1x256x64_S1x256x1_0_0_61 : ∀ a, (![0, 0, 61] : Fin 3 → Nat) a + S1x256x1.size a ≤ S1x256x64.size a
  inb_S1x64x512_S1x1x512_0_61_0 : ∀ a, (![0, 61, 0] : Fin 3 → Nat) a + S1x1x512.size a ≤ S1x64x512.size a
  inb_S1x256x64_S1x256x1_0_0_62 : ∀ a, (![0, 0, 62] : Fin 3 → Nat) a + S1x256x1.size a ≤ S1x256x64.size a
  inb_S1x64x512_S1x1x512_0_62_0 : ∀ a, (![0, 62, 0] : Fin 3 → Nat) a + S1x1x512.size a ≤ S1x64x512.size a
  inb_S1x256x64_S1x256x1_0_0_63 : ∀ a, (![0, 0, 63] : Fin 3 → Nat) a + S1x256x1.size a ≤ S1x256x64.size a
  inb_S1x64x512_S1x1x512_0_63_0 : ∀ a, (![0, 63, 0] : Fin 3 → Nat) a + S1x1x512.size a ≤ S1x64x512.size a
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S4x1024x64.size a
  hwx0_0 : ∀ i : grid0.Coords, EltTy.bits .f32 = 32 ∨ (Rect.block (s := S4x1024x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x1024.size a
  hwx0_1 : ∀ i : grid0.Coords, EltTy.bits .f32 = 32 ∨ (Rect.block (s := S4x64x1024) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S4x1024x1024.size a
  hwx0_2 : ∀ i : grid0.Coords, EltTy.bits .f32 = 32 ∨ (Rect.block (s := S4x1024x1024) S1x256x512.size (cc0_transform_2 i) (hinb0_2 i)).WholeWords (EltTy.packing .f32)

variable [Facts₀]

abbrev win0_0 : Pipeline.Window sig grid0 :=
  Pipeline.Window.ofSpec (Memref.whole main_arg0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S_ : Shape := ⟨0, ![]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S4x1024x64, .f32⟩
  | .hbm, ⟨2, _⟩ => ⟨S4x1024x1x64, .f32⟩
  | .hbm, ⟨3, _⟩ => ⟨S4x1x1024x64, .f32⟩
  | .hbm, ⟨4, _⟩ => ⟨S4x1024x1024x64, .f32⟩
  | .hbm, ⟨5, _⟩ => ⟨S4x1024x1024x64, .f32⟩
  | .hbm, ⟨6, _⟩ => ⟨S4x1024x1024x64, .f32⟩
  | .hbm, ⟨7, _⟩ => ⟨S4x1024x1024x64, .f32⟩
  | .hbm, ⟨8, _⟩ => ⟨S_, .f32⟩
  | .hbm, ⟨9, _⟩ => ⟨S4x1024x1024, .f32⟩
  | .hbm, ⟨10, _⟩ => ⟨S4x1024x1024, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  reducesTo_S4x1024x1024x64_S4x1024x1024_d3 : S4x1024x1024x64.ReducesTo [3] S4x1024x1024
  h_S_ : 0 < S_.numel

variable [Facts₀]

class Facts : Prop extends Facts₀ where

variable [Facts]
-- ==== Proof.SadSpec.lean ====
/-
  The sum of absolute differences, as one function of the two argument arrays.

  For `l, r : [4, 1024, 64]` the result `[4, 1024, 1024]` holds at `(b, n, q)` the value
  `-(0 + ∑ d < 64, |l[b, n, d] - r[b, q, d]|)` over the extended reals. A program that walks `d` from 0 to 63 and
  adds one term at a time to a running value started at zero computes the same number: a left fold of `+` over a
  commutative monoid is the finite sum (`accum_eq`). Nothing here needs the terms to be finite — only that `+` on
  the extended reals is associative with unit `0`, and that `0 - x = -x`.
-/
import Idealize.ShloMosaic.PureOps.Ideal.Laws
import Idealize.ShloMosaic.Lib.ValueIdx
import Idealize.ShloMosaic.Lib.KernelVsHost

noncomputable section

open scoped BigOperators

namespace Cert.Sad

open Idealize.ShloMosaic Idealize.ShloMosaic.ValueIdx

/-- The argument arrays' shape, the result's, and the three block shapes. -/
abbrev SArg : Shape := ⟨3, ![4, 1024, 64]⟩
abbrev SOut : Shape := ⟨3, ![4, 1024, 1024]⟩
abbrev SLb : Shape := ⟨3, ![1, 256, 64]⟩
abbrev SRb : Shape := ⟨3, ![1, 64, 512]⟩
abbrev SOb : Shape := ⟨3, ![1, 256, 512]⟩

/-- One term: the absolute difference of two entries. -/
abbrev adiff (u v : Ideal .f32) : Ideal .f32 := FloatOps.absf (FloatOps.subf u v)

/-- THE RESULT: at `(b, n, q)`, minus the sum over `d` of `|l[b, n, d] - r[b, q, d]|`. -/
def G (l r : SArg.Idx → Ideal .f32) : SOut.Idx → Ideal .f32 := fun i =>
  -((0 : EReal) + ∑ d : Fin 64, adiff (l (ix3 (i 0) (i 1) d)) (r (ix3 (i 0) (i 2) d)))

/-- The same over one block: rows of a `[1, 256, 64]` block against columns of a `[1, 64, 512]` block (the second
    array with its last two axes exchanged). -/
def blockVal (x0 : SLb.Idx → Ideal .f32) (x1 : SRb.Idx → Ideal .f32) : SOb.Idx → Ideal .f32 := fun y =>
  -((0 : EReal) + ∑ d : Fin 64, adiff (x0 (ix3 (0 : Fin 1) (y 1) d)) (x1 (ix3 (0 : Fin 1) d (y 2))))

/-- A running value: start at `z`, add `a 0`, then `a 1`, … -/
def accum (z : EReal) (a : ℕ → EReal) : ℕ → EReal
  | 0 => z
  | n + 1 => accum z a n + a n

/-- The running value after `n` steps is the start plus the sum of the first `n` terms. -/
theorem accum_eq (z : EReal) (a : ℕ → EReal) (n : ℕ) : accum z a n = z + ∑ k ∈ Finset.range n, a k := by
  induction n with
  | zero => simp [accum]
  | succ n ih => rw [accum, ih, Finset.sum_range_succ, add_assoc]

/-- The natural number `k` as a position below 64. -/
def fin64 (k : ℕ) : Fin 64 := ⟨k % 64, Nat.mod_lt _ (by decide)⟩

theorem fin64_val (d : Fin 64) : fin64 d.val = d := Fin.ext (Nat.mod_eq_of_lt d.isLt)

/-- Sixty-four steps over terms indexed below 64: the start plus the sum over `Fin 64`. -/
theorem accum_fin (z : EReal) (f : Fin 64 → EReal) :
    accum z (fun k => f (fin64 k)) 64 = z + ∑ d : Fin 64, f d := by
  rw [accum_eq, ← Fin.sum_univ_eq_sum_range (fun k => f (fin64 k)) 64]
  exact congrArg (z + ·) (Finset.sum_congr rfl fun d _ => congrArg f (fin64_val d))

/-- A block computed the program's way — zero, sixty-four terms added one at a time, then `0 - ·` — is `blockVal`. -/
theorem fold_eq_blockVal (x0 : SLb.Idx → Ideal .f32) (x1 : SRb.Idx → Ideal .f32) (y : SOb.Idx) :
    FloatOps.subf (FloatOps.ofBits (F := Ideal) .f32 0x00000000#32)
      (accum (FloatOps.ofBits (F := Ideal) .f32 0x00000000#32)
        (fun k => adiff (x0 (ix3 (0 : Fin 1) (y 1) (fin64 k))) (x1 (ix3 (0 : Fin 1) (fin64 k) (y 2)))) 64)
      = blockVal x0 x1 y := by
  rw [Ideal.subf_zero_eq_hostNegf,
    accum_fin _ (fun d => adiff (x0 (ix3 (0 : Fin 1) (y 1) d)) (x1 (ix3 (0 : Fin 1) d (y 2))))]
  show -(Ideal.ofBits .f32 0x00000000#32 + _) = -((0 : EReal) + _)
  rw [Ideal.ofBits_zero_f32]

end Cert.Sad

end
-- ==== Proof.SadLoads.lean ====
/-
  Where the body's loads read the two input blocks.

  Step `k` of the body loads column `k` of the `[1, 256, 64]` block — the rectangle of extents `[1, 256, 1]` at offset
  `[0, 0, k]` — and row `k` of the `[1, 64, 512]` block — extents `[1, 1, 512]` at offset `[0, k, 0]`. An index of such a
  rectangle has two coordinates of extent one, which are zero; so the element it names is `(0, p, k)` of the first
  block, `p` the rectangle's middle coordinate, and `(0, k, q)` of the second, `q` its last coordinate. Stated for
  any offset `k` the rectangle fits at, so that one statement serves the sixty-four steps.
-/
import proofs.«161349_j37383395344618_2_alg».proof.KernelIdeal
import proofs.«161349_j37383395344618_2_alg».proof.Proof.SadSpec

noncomputable section

namespace Cert.Sad

open Idealize.ShloMosaic Idealize.ShloMosaic.ValueIdx Cert.KernelIdeal

/-- Column `k` of the `[1, 256, 64]` block: the rectangle's index `i` names element `(0, i₁, k)`. -/
theorem lhs_idx (k : ℕ) (h : ∀ a, (![0, 0, k] : Fin S1x256x64.rank → ℕ) a + S1x256x1.size a ≤ S1x256x64.size a)
    (i : S1x256x1.Idx) :
    (Rect.unit (s := S1x256x64) ![0, 0, k] S1x256x1.size h).idx i = ix3 (0 : Fin 1) (i 1) (⟨k, h 2⟩ : Fin 64) := by
  funext a; apply Fin.ext
  have h0 : (i 0).val < 1 := (i 0).isLt
  have h2 : (i 2).val < 1 := (i 2).isLt
  match a with
  | ⟨0, _⟩ => show 0 + 1 * (i 0).val = 0; omega
  | ⟨1, _⟩ => show 0 + 1 * (i 1).val = (i 1).val; omega
  | ⟨2, _⟩ => show k + 1 * (i 2).val = k; omega

/-- Row `k` of the `[1, 64, 512]` block: the rectangle's index `i` names element `(0, k, i₂)`. -/
theorem rhs_idx (k : ℕ) (h : ∀ a, (![0, k, 0] : Fin S1x64x512.rank → ℕ) a + S1x1x512.size a ≤ S1x64x512.size a)
    (i : S1x1x512.Idx) :
    (Rect.unit (s := S1x64x512) ![0, k, 0] S1x1x512.size h).idx i = ix3 (0 : Fin 1) (⟨k, h 1⟩ : Fin 64) (i 2) := by
  funext a; apply Fin.ext
  have h0 : (i 0).val < 1 := (i 0).isLt
  have h1 : (i 1).val < 1 := (i 1).isLt
  match a with
  | ⟨0, _⟩ => show 0 + 1 * (i 0).val = 0; omega
  | ⟨1, _⟩ => show k + 1 * (i 1).val = k; omega
  | ⟨2, _⟩ => show 0 + 1 * (i 2).val = (i 2).val; omega

end Cert.Sad

end
-- ==== Proof.SadBlock.lean ====
/-
  What one grid point leaves in the output block: `blockVal` of the two input blocks.

  The body is a loop over `k < 64` written out: step `k` loads column `k` of the first block and row `k` of the second,
  lays the column along the rows and the row down the columns of a `[256, 512]` array, and adds the absolute
  difference to a running array started at the zero splat; at the end `0 - ·` is stored as the whole `[1, 256, 512]`
  block. `step` is one such step as a function, `running k` the running array after `k` steps. At entry `(p, q)` the
  running array after `k` steps is the running VALUE `accum` after `k` steps over the terms
  `|x0[0, p, d] - x1[0, d, q]|` (induction on `k`), and sixty-four steps, negated, are `blockVal`.
-/
import proofs.«161349_j37383395344618_2_alg».proof.Proof.Gen.KernelIdeal.Frame
import proofs.«161349_j37383395344618_2_alg».proof.Proof.SadLoads
import Idealize.ShloMosaic.Lib.Pipeline.Value

noncomputable section

namespace Cert.Sad

open Idealize.ShloMosaic Idealize.ShloMosaic.ValueIdx Cert.KernelIdeal Cert.KernelIdeal.Gen

/-- A `[1, 256, 1]` load, re-read as `[256, 1]` and laid along the rows of `[256, 512]`: entry `(p, q)` is the load's
    entry `(0, p, 0)`. -/
theorem col_apply (u : Vec Ideal S1x256x1 .f32) (j : S256x512.Idx) :
    broadcastTo S256x512 (shapeCast S256x1 (shapeCast S256x1 u shapeCasts_S1x256x1_S256x1) shapeCasts_S256x1_S256x1)
      broadcasts_S256x1_S256x512 j = u (ix3 (0 : Fin 1) (j 0) (0 : Fin 1)) := by
  rw [shapeCast_self]
  refine (broadcastTo_apply _ _ j (ix2 (j 0) (0 : Fin 1)) (fun a => ?_)).trans ?_
  · match a with
    | ⟨0, _⟩ => show (j 0).val = if (256 : ℕ) = 1 then 0 else (j 0).val; rw [if_neg (by decide)]
    | ⟨1, _⟩ => show 0 = if (1 : ℕ) = 1 then 0 else (j 1).val; rw [if_pos rfl]
  · refine shapeCast_apply _ _ _ _ ((Shape.rowMajor_val_three _).trans (Eq.trans ?_ (Shape.rowMajor_val_two _).symm))
    show (0 * 256 + (j 0).val) * 1 + 0 = (j 0).val * 1 + 0
    omega

/-- A `[1, 1, 512]` load, re-read as `[1, 512]` and laid down the columns of `[256, 512]`: entry `(p, q)` is the load's
    entry `(0, 0, q)`. -/
theorem row_apply (v : Vec Ideal S1x1x512 .f32) (j : S256x512.Idx) :
    broadcastTo S256x512 (shapeCast S1x512 (shapeCast S1x512 v shapeCasts_S1x1x512_S1x512) shapeCasts_S1x512_S1x512)
      broadcasts_S1x512_S256x512 j = v (ix3 (0 : Fin 1) (0 : Fin 1) (j 1)) := by
  rw [shapeCast_self]
  refine (broadcastTo_apply _ _ j (ix2 (0 : Fin 1) (j 1)) (fun a => ?_)).trans ?_
  · match a with
    | ⟨0, _⟩ => show 0 = if (1 : ℕ) = 1 then 0 else (j 0).val; rw [if_pos rfl]
    | ⟨1, _⟩ => show (j 1).val = if (512 : ℕ) = 1 then 0 else (j 1).val; rw [if_neg (by decide)]
  · refine shapeCast_apply _ _ _ _ ((Shape.rowMajor_val_three _).trans (Eq.trans ?_ (Shape.rowMajor_val_two _).symm))
    show (0 * 1 + 0) * 512 + (j 1).val = 0 * 512 + (j 1).val
    omega

/-- ONE STEP of the body: the running array plus the absolute difference of a column laid along the rows and a row
    laid down the columns. -/
def step (acc : FVec Ideal S256x512 .f32) (u : Vec Ideal S1x256x1 .f32) (v : Vec Ideal S1x1x512 .f32) :
    FVec Ideal S256x512 .f32 :=
  addf acc (absf (subf
    (broadcastTo S256x512 (shapeCast S256x1 (shapeCast S256x1 u shapeCasts_S1x256x1_S256x1) shapeCasts_S256x1_S256x1)
      broadcasts_S256x1_S256x512)
    (broadcastTo S256x512 (shapeCast S1x512 (shapeCast S1x512 v shapeCasts_S1x1x512_S1x512) shapeCasts_S1x512_S1x512)
      broadcasts_S1x512_S256x512)))

/-- One step at entry `(p, q)`: the running entry plus `|u[0, p, 0] - v[0, 0, q]|`. -/
theorem step_apply (acc : FVec Ideal S256x512 .f32) (u : Vec Ideal S1x256x1 .f32) (v : Vec Ideal S1x1x512 .f32)
    (j : S256x512.Idx) :
    step acc u v j = acc j + adiff (u (ix3 (0 : Fin 1) (j 0) (0 : Fin 1))) (v (ix3 (0 : Fin 1) (0 : Fin 1) (j 1))) := by
  show acc j + adiff (broadcastTo S256x512 _ broadcasts_S256x1_S256x512 j) (broadcastTo S256x512 _ broadcasts_S1x512_S256x512 j) = _
  rw [col_apply, row_apply]

/-- Column `k` of the first block lies inside it, for `k < 64`. -/
theorem inbL (k : ℕ) (hk : k < 64) :
    ∀ a, (![0, 0, k] : Fin S1x256x64.rank → ℕ) a + S1x256x1.size a ≤ S1x256x64.size a := fun a => by
  match a with
  | ⟨0, _⟩ => show 0 + 1 ≤ 1; omega
  | ⟨1, _⟩ => show 0 + 256 ≤ 256; omega
  | ⟨2, _⟩ => show k + 1 ≤ 64; omega

/-- Row `k` of the second block lies inside it, for `k < 64`. -/
theorem inbR (k : ℕ) (hk : k < 64) :
    ∀ a, (![0, k, 0] : Fin S1x64x512.rank → ℕ) a + S1x1x512.size a ≤ S1x64x512.size a := fun a => by
  match a with
  | ⟨0, _⟩ => show 0 + 1 ≤ 1; omega
  | ⟨1, _⟩ => show k + 1 ≤ 64; omega
  | ⟨2, _⟩ => show 0 + 512 ≤ 512; omega

/-- THE RUNNING ARRAY after `k` steps over the two blocks. -/
def running (x0 : Vec Ideal S1x256x64 .f32) (x1 : Vec Ideal S1x64x512 .f32) :
    (k : ℕ) → k ≤ 64 → FVec Ideal S256x512 .f32
  | 0, _ => broadcast S256x512 (Scalar.ofBits .f32 0x00000000#32)
  | k + 1, h => step (running x0 x1 k (Nat.le_of_succ_le h))
      (View.ld x0 (Rect.unit (s := S1x256x64) ![0, 0, k] S1x256x1.size (inbL k h)))
      (View.ld x1 (Rect.unit (s := S1x64x512) ![0, k, 0] S1x1x512.size (inbR k h)))

/-- Entry `(p, q)` of the running array after `k` steps is the running value after `k` steps over
    `|x0[0, p, d] - x1[0, d, q]|`. -/
theorem running_apply (x0 : Vec Ideal S1x256x64 .f32) (x1 : Vec Ideal S1x64x512 .f32) (j : S256x512.Idx) :
    ∀ (k : ℕ) (h : k ≤ 64), running x0 x1 k h j
      = accum (FloatOps.ofBits (F := Ideal) .f32 0x00000000#32)
          (fun d => adiff (x0 (ix3 (0 : Fin 1) (j 0) (fin64 d))) (x1 (ix3 (0 : Fin 1) (fin64 d) (j 1)))) k
  | 0, _ => rfl
  | k + 1, h => by
      have hk : (⟨k, h⟩ : Fin 64) = fin64 k := Fin.ext (Nat.mod_eq_of_lt h).symm
      rw [running, step_apply, running_apply x0 x1 j k (Nat.le_of_succ_le h), accum]
      show _ + adiff (x0 ((Rect.unit (s := S1x256x64) ![0, 0, k] S1x256x1.size (inbL k h)).idx (ix3 (0 : Fin 1) (j 0) (0 : Fin 1))))
        (x1 ((Rect.unit (s := S1x64x512) ![0, k, 0] S1x1x512.size (inbR k h)).idx (ix3 (0 : Fin 1) (0 : Fin 1) (j 1)))) = _
      rw [lhs_idx, rhs_idx]
      show _ + adiff (x0 (ix3 (0 : Fin 1) (j 0) (⟨k, h⟩ : Fin 64))) (x1 (ix3 (0 : Fin 1) (⟨k, h⟩ : Fin 64) (j 1))) = _
      rw [hk]

theorem zero3 : (![0, 0, 0] : Fin 3 → ℕ) = fun _ => 0 := funext fun a => by fin_cases a <;> rfl

/-- The body's one store, over the loads of the two input blocks, is `blockVal` of those blocks. -/
theorem out_eq (x0 : Vec Ideal S1x256x64 .f32) (x1 : Vec Ideal S1x64x512 .f32) :
    out0_2 (F := Ideal) x0 x1 = blockVal x0 x1 := by
  unfold out0_2
  rw [View.canon_unit_zero zero3]
  -- the stored value, as printed, is sixty-four steps from the zero splat, subtracted from the zero splat, re-read as [1, 256, 512]
  show shapeCast S1x256x512 (subf (broadcast S256x512 (Scalar.ofBits .f32 0x00000000#32)) (running x0 x1 64 (le_refl 64)))
    shapeCasts_S256x512_S1x256x512 = _
  funext y
  have hy0 : (y 0).val < 1 := (y 0).isLt
  refine (shapeCast_apply _ _ y (ix2 (y 1) (y 2)) ?_).trans ?_
  · rw [Shape.rowMajor_val_two, Shape.rowMajor_val_three]
    show (y 1).val * 512 + (y 2).val = ((y 0).val * 256 + (y 1).val) * 512 + (y 2).val
    omega
  · show FloatOps.subf (FloatOps.ofBits (F := Ideal) .f32 0x00000000#32) (running x0 x1 64 (le_refl 64) (ix2 (y 1) (y 2))) = _
    rw [running_apply]
    exact fold_eq_blockVal x0 x1 y

end Cert.Sad

end
-- ==== Proof.SadArray.lean ====
/-
  From blocks to the whole array.

  The grid is `4 × 4 × 2`: point `(b, i, j)` reads rows `256 i … 256 i + 255` of batch `b` of the first argument (block
  `(b, i, 0)` of extents `[1, 256, 64]`), columns `512 j … 512 j + 511` of batch `b` of the second argument with its last
  two axes exchanged (block `(b, 0, j)` of extents `[1, 64, 512]`), and writes block `(b, i, j)` of extents
  `[1, 256, 512]` of the result. Entry `(0, p, q)` of what it writes is `blockVal` of the two blocks, which reads
  `l[b, 256 i + p, d]` and `r[b, 512 j + q, d]` for `d < 64`: the restriction of `G l r` to the block. The thirty-two
  blocks tile `[4, 1024, 1024]` (the point covering `(b, n, q)` is `(b, n / 256, q / 512)`), so the array ends at `G l r`.
-/
import proofs.«161349_j37383395344618_2_alg».proof.Proof.Gen.KernelIdeal.Frame
import proofs.«161349_j37383395344618_2_alg».proof.Proof.SadBlock
import Idealize.ShloMosaic.Lib.Pipeline.Value
import Idealize.ShloMosaic.Lib.StableHlo.Run

set_option maxRecDepth 16384

noncomputable section

open scoped BigOperators

namespace Cert.Sad

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The second window's array, as the region finds it, is the second argument with its last two axes exchanged. -/
theorem V_main_v0 (c : Dev nD) :
    (V m c main_v0 : S4x64x1024.Idx → EReal)
      = transpose S4x64x1024 [0, 2, 1] (m ((c : Thread nD τ).loc main_arg1)) transposes_S4x1024x64_S4x64x1024_0_2_1 := by
  dsimp only [V, hostOps0]; after_results

/-- The three index maps over the grid: the first window follows the output on the batch and row axes and stays at
    zero on the last; the second follows it on the batch and column axes and stays at zero in the middle. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = win0_2.index t (2 : Fin 3)
    ∧ win0_2.index t (0 : Fin 3) ≤ 3 ∧ win0_2.index t (1 : Fin 3) ≤ 3 ∧ win0_2.index t (2 : Fin 3) ≤ 1 :=
  (by decide +kernel : ∀ t : Fin grid0.N, _)

/-- Every block of the result is some point's. -/
theorem idx_onto : ∀ (q0 : Fin 4) (q1 : Fin 4) (q2 : Fin 2), ∃ t : Fin cfg0.N, win0_2.index t = ![q0.val, q1.val, q2.val] :=
  (by decide +kernel : ∀ (q0 : Fin 4) (q1 : Fin 4) (q2 : Fin 2), ∃ t : Fin grid0.N, win0_2.index t = ![q0.val, q1.val, q2.val])

/-- WHAT POINT `t` WRITES BACK is block `t` of `G` of the two arguments. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  show (cfg0.win 2).cut (grid0.coords t) ((dats m 0 c).after 2 t) = _
  rw [after0_2, out_eq]
  obtain ⟨f0, f1, f2, f3, f4, f5, f6, f7, f8⟩ := idx_facts t
  funext y
  have hy0 : (y 0).val < 1 := (y 0).isLt
  show -((0 : EReal) + ∑ d : Fin 64, adiff (iblk m c 0 t (ix3 (0 : Fin 1) (y 1) d)) (iblk m c 1 t (ix3 (0 : Fin 1) d (y 2))))
    = -((0 : EReal) + ∑ d : Fin 64,
        adiff (m ((c : Thread nD τ).loc main_arg0) (ix3 ((((cfg0.win 2).blk t).view.emb y) 0) ((((cfg0.win 2).blk t).view.emb y) 1) d))
          (m ((c : Thread nD τ).loc main_arg1) (ix3 ((((cfg0.win 2).blk t).view.emb y) 0) ((((cfg0.win 2).blk t).view.emb y) 2) d)))
  refine congrArg Neg.neg (congrArg ((0 : EReal) + ·) (Finset.sum_congr rfl fun d _ => ?_))
  have hd : d.val < 64 := d.isLt
  refine congrArg₂ adiff ?_ ?_
  · -- the first block's entry `(0, p, d)` is `l[b, 256 i + p, d]`
    show V m c main_arg0 (((cfg0.win 0).blk t).view.emb (ix3 (0 : Fin 1) (y 1) d)) = _
    rw [V_main_arg0]
    refine congrArg _ (funext fun a => Fin.ext ?_)
    match a with
    | ⟨0, _⟩ => show win0_0.index t (0 : Fin 3) * 1 + 1 * 0 = win0_2.index t (0 : Fin 3) * 1 + 1 * (y 0).val; omega
    | ⟨1, _⟩ => show win0_0.index t (1 : Fin 3) * 256 + 1 * (y 1).val = win0_2.index t (1 : Fin 3) * 256 + 1 * (y 1).val; omega
    | ⟨2, _⟩ => show win0_0.index t (2 : Fin 3) * 64 + 1 * d.val = d.val; omega
  · -- the second block's entry `(0, d, q)` is `r[b, 512 j + q, d]`, through the exchange of axes
    show V m c main_v0 (((cfg0.win 1).blk t).view.emb (ix3 (0 : Fin 1) d (y 2))) = _
    rw [V_main_v0]
    refine transpose_apply _ _ _ _ _ (fun b => ?_)
    match b with
    | ⟨0, _⟩ => show win0_2.index t (0 : Fin 3) * 1 + 1 * (y 0).val = win0_1.index t (0 : Fin 3) * 1 + 1 * 0; omega
    | ⟨1, _⟩ => show d.val = win0_1.index t (1 : Fin 3) * 64 + 1 * d.val; omega
    | ⟨2, _⟩ => show win0_2.index t (2 : Fin 3) * 512 + 1 * (y 2).val = win0_1.index t (2 : Fin 3) * 512 + 1 * (y 2).val; omega

/-- An index of the result is in point `t`'s block iff each coordinate is in the block's range on its axis. -/
theorem mem_blk (t : Fin cfg0.N) (i : S4x1024x1024.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v1).slice (win0_2.rect t)).set ↔ _
  rw [View.set_slice_whole, Rect.mem_set_unit]
  exact Iff.rfl

/-- The blocks tile the result: `(b, n, q)` is in the block of the point with output block index `(b, n / 256, q / 512)`. -/
theorem cover (i : S4x1024x1024.Idx) :
    ∃ t : Fin cfg0.N, (cfg0.win 2).flush t = true ∧ i ∈ ((cfg0.win 2).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, by omega⟩ ⟨(i 1).val / 256, by omega⟩ ⟨(i 2).val / 512, by omega⟩
  have q0 : win0_2.index t (0 : Fin 3) = (i 0).val := congrFun ht 0
  have q1 : win0_2.index t (1 : Fin 3) = (i 1).val / 256 := congrFun ht 1
  have q2 : win0_2.index t (2 : Fin 3) = (i 2).val / 512 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- THE ARRAY after the run is `G` of the two arguments. -/
theorem final (c : Dev nD) :
    (dats m 0 c).arrAt 2 cfg0.N = G (m ((c : Thread nD τ).loc main_arg0)) (m ((c : Thread nD τ).loc main_arg1)) :=
  (dats m 0 c).arrAt_eq_of_cover 2 _ (fun t _ => flushed_eq m c t) cover

/-- THE KERNEL'S RUN, read: every weakly fair execution ends with the result array at `G` of the two arguments and
    the arguments as they were. Of the frame run's post: the output window's array is what the write-backs left
    (`final`); the first argument is an input window's array, never written back; the second is staged by no window
    (the window reads its transposed copy), so it is among the buffers the region leaves alone. -/
theorem kernel_run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans (final m c),
       ((h c).1 0).trans (((dats m 0 c).arrAt_in 0 rfl _).trans ((A_eq m c 0).trans (V_main_arg0 m c))),
       ((h c).2 main_arg1 (Pipeline.mem_restRefs_of main_arg1 (by decide) (by decide))).trans (V_main_arg1 m c)⟩)
    (run_main m ρ)

end Cert.Sad

end
-- ==== Proof.SadReference.lean ====
/-
  The reference computes `G`.

  Read one operation at a time: the two arguments are laid along a new axis each — `l` at `(b, n, ·, d)`, `r` at
  `(b, ·, q, d)` —, subtracted and made absolute entry by entry over `[4, 1024, 1024, 64]`, summed over the last axis
  from the zero word, and negated. At `(b, n, q)` that is `-(0 + ∑ d, |l[b, n, d] - r[b, q, d]|)`, which is `G`. The
  host's absolute value and negation are the extended reals' `max x (-x)` and `-x`, the same functions the kernel's
  operations denote.
-/
import proofs.«161349_j37383395344618_2_alg».proof.Proof.Gen.ReferenceIdeal.Read
import proofs.«161349_j37383395344618_2_alg».proof.Proof.SadSpec

noncomputable section

open scoped BigOperators

namespace Cert.Sad

open Idealize.ShloMosaic Idealize.ShloMosaic.ValueIdx Cert.ReferenceIdeal Cert.ReferenceIdeal.Read

/-- The last stage of the reference, as a function of the two argument arrays, is `G`. -/
theorem reference_eq_G (x0 x1 : (⟨S4x1024x64, .f32⟩ : BufTy).Contents (Elt Ideal)) :
    val_main_v7 (F := Ideal) x0 x1 = G x0 x1 := by
  funext i
  rw [val_main_v7_apply, val_main_v6_apply, val_main_cst_apply]
  show -(Ideal.ofBits .f32 0x00000000#32 + ∑ k : Fin 64, val_main_v5 (F := Ideal) x0 x1 (idx_main_v6 i k))
    = -((0 : EReal) + ∑ d : Fin 64, adiff (x0 (ix3 (i 0) (i 1) d)) (x1 (ix3 (i 0) (i 2) d)))
  rw [Ideal.ofBits_zero_f32]
  refine congrArg Neg.neg (congrArg ((0 : EReal) + ·) (Finset.sum_congr rfl fun d _ => ?_))
  -- entry `(b, n, q, d)` of the difference reads `l` at `(b, n, d)` and `r` at `(b, q, d)`
  have e0 : idx_main_v0 (idx_main_v2 (idx_main_v6 i d)) = ix3 (i 0) (i 1) d :=
    funext fun a => Fin.ext (by match a with | ⟨0, _⟩ => rfl | ⟨1, _⟩ => rfl | ⟨2, _⟩ => rfl)
  have e1 : idx_main_v1 (idx_main_v3 (idx_main_v6 i d)) = ix3 (i 0) (i 2) d :=
    funext fun a => Fin.ext (by match a with | ⟨0, _⟩ => rfl | ⟨1, _⟩ => rfl | ⟨2, _⟩ => rfl)
  rw [val_main_v5_apply, val_main_v4_apply, val_main_v2_apply, val_main_v3_apply, val_main_v0_apply,
    val_main_v1_apply, e0, e1]
  rfl

end Cert.Sad

end
-- ==== Proof.lean ====
/-
  The sum of absolute differences: a tiled kernel against its one-line reference, equal over the extended reals.

  For `l, r : [4, 1024, 64]` both programs end with `out[b, n, q] = -(0 + ∑ d < 64, |l[b, n, d] - r[b, q, d]|)`
  (`Cert.Sad.G`, Proof/SadSpec.lean).
  The reference lays `l` and `r` along a new axis each, subtracts, takes absolute values over `[4, 1024, 1024, 64]`, sums
  the last axis from zero and negates (Proof/SadReference.lean, over the generated reading of its run).
  The kernel exchanges the last two axes of `r` on the host and runs a `4 × 4 × 2` grid; each point holds a
  `[1, 256, 64]` block of `l` and a `[1, 64, 512]` block of the exchanged `r`, walks `d` from 0 to 63 adding
  `|column d - row d|` to a running `[256, 512]` array started at zero, and stores `0 -` that array as a
  `[1, 256, 512]` block of the result (Proof/SadLoads.lean, Proof/SadBlock.lean); the thirty-two blocks tile the result
  (Proof/SadArray.lean).
  The two sides differ in the order of the sum only: a running value started at `z` is `z` plus the finite sum of
  the terms added (`Cert.Sad.accum_eq`), and `0 - x = -x`. Both hold on all of the extended reals, so the
  precondition (finite inputs) is never opened. The absolute value and the negation of the host and of the kernel
  are the same functions of an extended real, `max x (-x)` and `-x`.
  The idealization rewrote nothing, so `preserves` is `True`.
-/
import proofs.«161349_j37383395344618_2_alg».proof.Defs
import proofs.«161349_j37383395344618_2_alg».proof.Proof.Gen.Kernel
import proofs.«161349_j37383395344618_2_alg».proof.Proof.Gen.Kernel.Skeleton
import proofs.«161349_j37383395344618_2_alg».proof.Proof.Gen.Kernel.Launch
import proofs.«161349_j37383395344618_2_alg».proof.Proof.Gen.Kernel.Points
import proofs.«161349_j37383395344618_2_alg».proof.Proof.Gen.Kernel.Frame
import proofs.«161349_j37383395344618_2_alg».proof.Proof.Gen.KernelIdeal
import proofs.«161349_j37383395344618_2_alg».proof.Proof.Gen.KernelIdeal.Skeleton
import proofs.«161349_j37383395344618_2_alg».proof.Proof.Gen.KernelIdeal.Launch
import proofs.«161349_j37383395344618_2_alg».proof.Proof.Gen.KernelIdeal.Points
import proofs.«161349_j37383395344618_2_alg».proof.Proof.Gen.KernelIdeal.Frame
import proofs.«161349_j37383395344618_2_alg».proof.Proof.Gen.ReferenceIdeal
import proofs.«161349_j37383395344618_2_alg».proof.Proof.Gen.ReferenceIdeal.Run
import proofs.«161349_j37383395344618_2_alg».proof.Proof.Gen.ReferenceIdeal.Read
import proofs.«161349_j37383395344618_2_alg».proof.Proof.Gen.Pre_finite_inputs
import proofs.«161349_j37383395344618_2_alg».proof.Proof.SadArray
import proofs.«161349_j37383395344618_2_alg».proof.Proof.SadReference
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the two arguments both programs end with the result at `G` of those arguments. -/
theorem algebraic : Cert.algebraic_KernelIdeal_ReferenceIdeal := by
  intro m ρ m' ρ' _ hagree
  refine ⟨_, Cert.Sad.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Sad.reference_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
